-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x4096 : Shape := ⟨2, ![4096, 4096]⟩
abbrev S11008x4096 : Shape := ⟨2, ![11008, 4096]⟩
abbrev S11008x64 : Shape := ⟨2, ![11008, 64]⟩
abbrev S11008 : Shape := ⟨1, ![11008]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S11008x64 : S_.BroadcastsInDim S11008x64 (![] : Fin 0 → Fin S11008x64.rank)
  reducesTo_S11008x64_S_d0_1 : S11008x64.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4096x4096 .f32) (main_arg1 : IVec S11008x4096 32) (main_arg2 : FVec F S11008x64 .f32) (main_arg3 : IVec S11008x64 32) (main_arg4 : FVec F S11008 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S11008x64 .f32 := Host.absf main_arg2
  let main_cst_0 : FVec F S_ .f32 := constant S_ .f32 0x7F800000#32
  let main_v5 : FVec F S11008x64 .f32 := broadcastInDim S11008x64 ![] bcast_S_S11008x64 main_cst_0
  let main_v6 : IVec S11008x64 1 := cmpf .olt main_v4 main_v5
  let main_c_1 : IVec S_ 1 := constantI S_ 1 1#1
  let main_v7 : IVec S_ 1 := (fun x v => Host.reduce IntOp.andi x v reducesTo_S11008x64_S_d0_1 h_S_) main_v6 main_c_1
  let main_v8 : IVec S_ 1 := andi main_v3 main_v7
  let main_v9 : FVec F S11008 .f32 := Host.absf main_arg4
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4096x4096 : Shape := ⟨2, ![4096, 4096]⟩
abbrev S11008x4096 : Shape := ⟨2, ![11008, 4096]⟩
abbrev S11008x64 : Shape := ⟨2, ![11008, 64]⟩
abbrev S11008 : Shape := ⟨1, ![11008]⟩
abbrev S_ : Shape := ⟨0, ![]⟩
abbrev S11264x4096 : Shape := ⟨2, ![11264, 4096]⟩
abbrev S11264x64 : Shape := ⟨2, ![11264, 64]⟩
abbrev S11264 : Shape := ⟨1, ![11264]⟩
abbrev S64x11264 : Shape := ⟨2, ![64, 11264]⟩
abbrev S1x11264 : Shape := ⟨2, ![1, 11264]⟩
abbrev S4096x11264 : Shape := ⟨2, ![4096, 11264]⟩
abbrev S1024x512 : Shape := ⟨2, ![1024, 512]⟩
abbrev S8x1024 : Shape := ⟨2, ![8, 1024]⟩
abbrev S1x1024 : Shape := ⟨2, ![1, 1024]⟩
abbrev S1024x1024 : Shape := ⟨2, ![1024, 1024]⟩
abbrev S1024x8x64 : Shape := ⟨3, ![1024, 8, 64]⟩
abbrev S1024x8 : Shape := ⟨2, ![1024, 8]⟩
abbrev S1024x8x1 : Shape := ⟨3, ![1024, 8, 1]⟩
abbrev S4096x11008 : Shape := ⟨2, ![4096, 11008]⟩

abbrev nBuf : Space → Nat
  | .hbm => 22
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x64, .f32⟩
  | .hbm, ⟨3, _⟩ => ⟨S11008x64, .i32⟩
  | .hbm, ⟨4, _⟩ => ⟨S11008, .f32⟩
  | .hbm, ⟨5, _⟩ => ⟨S_, .i32⟩
  | .hbm, ⟨6, _⟩ => ⟨S_, .i32⟩
  | .hbm, ⟨7, _⟩ => ⟨S11264x4096, .i32⟩
  | .hbm, ⟨8, _⟩ => ⟨S_, .i32⟩
  | .hbm, ⟨9, _⟩ => ⟨S_, .f32⟩
  | .hbm, ⟨10, _⟩ => ⟨S11264x64, .f32⟩
  | .hbm, ⟨11, _⟩ => ⟨S_, .i32⟩
  | .hbm, ⟨12, _⟩ => ⟨S_, .i32⟩
  | .hbm, ⟨13, _⟩ => ⟨S11264x64, .i32⟩
  | .hbm, ⟨14, _⟩ => ⟨S_, .i32⟩
  | .hbm, ⟨15, _⟩ => ⟨S_, .f32⟩
  | .hbm, ⟨16, _⟩ => ⟨S11264, .f32⟩
  | .hbm, ⟨17, _⟩ => ⟨S64x11264, .f32⟩
  | .hbm, ⟨18, _⟩ => ⟨S64x11264, .i32⟩
  | .hbm, ⟨19, _⟩ => ⟨S1x11264, .f32⟩
  | .hbm, ⟨20, _⟩ => ⟨S4096x11264, .f32⟩
  | .hbm, ⟨21, _⟩ => ⟨S4096x11008, .f32⟩
  | .local _ .vmem, ⟨0, _⟩ => ⟨S1024x512, .f32⟩
  | .local _ .vmem, ⟨1, _⟩ => ⟨S1024x512, .f32⟩
  | .local _ .vmem, ⟨2, _⟩ => ⟨S1024x512, .i32⟩
  | .local _ .vmem, ⟨3, _⟩ => ⟨S1024x512, .i32⟩
  | .local _ .vmem, ⟨4, _⟩ => ⟨S8x1024, .f32⟩
  | .local _ .vmem, ⟨5, _⟩ => ⟨S8x1024, .f32⟩
  | .local _ .vmem, ⟨6, _⟩ => ⟨S8x1024, .i32⟩
  | .local _ .vmem, ⟨7, _⟩ => ⟨S8x1024, .i32⟩
  | .local _ .vmem, ⟨8, _⟩ => ⟨S1x1024, .f32⟩
  | .local _ .vmem, ⟨9, _⟩ => ⟨S1x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_c_0 : Ref sig .tc := ⟨.hbm, 8, rfl⟩
abbrev main_call1_v0 : Ref sig .tc := ⟨.hbm, 9, rfl⟩
abbrev main_v1 : Ref sig .tc := ⟨.hbm, 10, rfl⟩
abbrev main_c_1 : Ref sig .tc := ⟨.hbm, 11, rfl⟩
abbrev main_call2_v0 : Ref sig .tc := ⟨.hbm, 12, rfl⟩
abbrev main_v2 : Ref sig .tc := ⟨.hbm, 13, rfl⟩
abbrev main_c_2 : Ref sig .tc := ⟨.hbm, 14, rfl⟩
abbrev main_call3_v0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![4, 11, 8], ![false, false, false]⟩

def k0_cond2 (i : grid0.Coords) : BitVec 1 :=
  let arg2 : BitVec 32 := BitVec.ofNat 32 (i 2).val
  let c7_i32 : BitVec 32 := 7#32
  let v30 : BitVec 1 := Scalar.cmpi .eq arg2 c7_i32
  let v31 : BitVec 32 := Scalar.extui v30
  let c0_i32_12 : BitVec 32 := 0#32
  let v32 : BitVec 1 := Scalar.cmpi .ne v31 c0_i32_12
  v32

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S8x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S8x1024 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

class Facts₀ : Prop where
  pads_S11008x4096_S11264x4096_02560_000 : S11008x4096.Pads (![0, 0] : Fin 2 → Nat) ![256, 0] ![0, 0] S11264x4096
  h_S_ : 0 < S_.numel
  pads_S11008x64_S11264x64_02560_000 : S11008x64.Pads (![0, 0] : Fin 2 → Nat) ![256, 0] ![0, 0] S11264x64
  pads_S11008_S11264_02560 : S11008.Pads (![0] : Fin 1 → Nat) ![256] ![0] S11264
  transposes_S11264x64_S64x11264_1_0 : S11264x64.Transposes [1, 0] S64x11264
  shapeCasts_S11264_S1x11264 : S11264.ShapeCasts S1x11264
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  shapeCasts_S1024x512_S1024x8x64 : S1024x512.ShapeCasts S1024x8x64
  inb_S8x1024_S8x1024_0_0 : ∀ a, (![0, 0] : Fin 2 → Nat) a + S8x1024.size a ≤ S8x1024.size a
  h_S8x1024 : 0 < S8x1024.numel
  shapeCasts_S8x1024_S8x1024 : S8x1024.ShapeCasts S8x1024
  transposes_S8x1024_p1_0_S1024x8 : S8x1024.Transposes [1, 0] S1024x8
  shapeCasts_S1024x8_S1024x8x1 : S1024x8.ShapeCasts S1024x8x1
  broadcasts_S1024x8x1_S1024x8x64 : S1024x8x1.Broadcasts S1024x8x64
  shapeCasts_S1024x8x64_S1024x512 : S1024x8x64.ShapeCasts S1024x512
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S4096x11264_S4096x11008_0_0 : S4096x11264.Slices ![0, 0] S4096x11008
  dot_S1024x512_S1024x512_S1024x1024_1_1_0_0_n_n_wf : DotDims.WF S1024x512 S1024x512 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S4096x4096.size a
  hwx0_0 : ∀ i : grid0.Coords, EltTy.bits .f32 = 32 ∨ (Rect.block (s := S4096x4096) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S11264x4096.size a
  hwx0_1 : ∀ i : grid0.Coords, EltTy.bits .i32 = 32 ∨ (Rect.block (s := S11264x4096) S1024x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1024.size a ≤ S64x11264.size a
  hwx0_2 : ∀ i : grid0.Coords, EltTy.bits .f32 = 32 ∨ (Rect.block (s := S64x11264) S8x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x1024.size a ≤ S64x11264.size a
  hwx0_3 : ∀ i : grid0.Coords, EltTy.bits .i32 = 32 ∨ (Rect.block (s := S64x11264) S8x1024.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x11264.size a
  hwx0_4 : ∀ i : grid0.Coords, EltTy.bits .f32 = 32 ∨ (Rect.block (s := S1x11264) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S4096x11264.size a
  hwx0_5 : ∀ i : grid0.Coords, EltTy.bits .f32 = 32 ∨ (Rect.block (s := S4096x11264) S1024x1024.size (cc0_transform_5 i) (hinb0_5 i)).WholeWords (EltTy.packing .f32)

variable [Facts₀]

def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S8x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S8x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v6) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1024x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond2 i == 1#1) | ⟨_ + 6, h⟩ => absurd h (Nat.not_lt.2 (Nat.le_add_left _ _))

class Facts : Prop extends Facts₀ where

variable [Facts]
-- ==== ReferenceIdeal.lean ====
abbrev S4096x4096 : Shape := ⟨2, ![4096, 4096]⟩
abbrev S11008x4096 : Shape := ⟨2, ![11008, 4096]⟩
abbrev S11008x64 : Shape := ⟨2, ![11008, 64]⟩
abbrev S11008 : Shape := ⟨1, ![11008]⟩
abbrev S11008x64x64 : Shape := ⟨3, ![11008, 64, 64]⟩
abbrev S11008x64x1 : Shape := ⟨3, ![11008, 64, 1]⟩
abbrev S4096x11008 : Shape := ⟨2, ![4096, 11008]⟩
abbrev S1x11008 : Shape := ⟨2, ![1, 11008]⟩

abbrev nBuf : Space → Nat
  | .hbm => 19
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S11008x4096, .i32⟩
  | .hbm, ⟨2, _⟩ => ⟨S11008x64, .f32⟩
  | .hbm, ⟨3, _⟩ => ⟨S11008x64, .i32⟩
  | .hbm, ⟨4, _⟩ => ⟨S11008, .f32⟩
  | .hbm, ⟨5, _⟩ => ⟨S11008x64x64, .i32⟩
  | .hbm, ⟨6, _⟩ => ⟨S11008x64x64, .f32⟩
  | .hbm, ⟨7, _⟩ => ⟨S11008x64x1, .i32⟩
  | .hbm, ⟨8, _⟩ => ⟨S11008x64x1, .f32⟩
  | .hbm, ⟨9, _⟩ => ⟨S11008x64x1, .f32⟩
  | .hbm, ⟨10, _⟩ => ⟨S11008x64x64, .f32⟩
  | .hbm, ⟨11, _⟩ => ⟨S11008x64x64, .f32⟩
  | .hbm, ⟨12, _⟩ => ⟨S11008x64x64, .f32⟩
  | .hbm, ⟨13, _⟩ => ⟨S11008x64x64, .f32⟩
  | .hbm, ⟨14, _⟩ => ⟨S11008x4096, .f32⟩
  | .hbm, ⟨15, _⟩ => ⟨S4096x11008, .f32⟩
  | .hbm, ⟨16, _⟩ => ⟨S1x11008, .f32⟩
  | .hbm, ⟨17, _⟩ => ⟨S4096x11008, .f32⟩
  | .hbm, ⟨18, _⟩ => ⟨S4096x11008, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  shapeCasts_S11008x4096_S11008x64x64 : S11008x4096.ShapeCasts S11008x64x64
  shapeCasts_S11008x64_S11008x64x1 : S11008x64.ShapeCasts S11008x64x1
  bcast_S11008x64x1_S11008x64x64_0_1_2 : S11008x64x1.BroadcastsInDim S11008x64x64 (![0, 1, 2] : Fin 3 → Fin S11008x64x64.rank)
  shapeCasts_S11008x64x64_S11008x4096 : S11008x64x64.ShapeCasts S11008x4096
  bcast_S11008_S1x11008_1 : S11008.BroadcastsInDim S1x11008 (![1] : Fin 1 → Fin S1x11008.rank)
  bcast_S1x11008_S4096x11008_0_1 : S1x11008.BroadcastsInDim S4096x11008 (![0, 1] : Fin 2 → Fin S4096x11008.rank)
  dot_S4096x4096_S11008x4096_S4096x11008_1_1_0_0_n_n_wf : DotDims.WF S4096x4096 S11008x4096 S4096x11008 [1] [1] [0] [0] [] []

variable [Facts₀]

def dot_S4096x4096_S11008x4096_S4096x11008_1_1_0_0_n_n : DotDims S4096x4096 S11008x4096 S4096x11008 where
  lhsContracting := [1]
  rhsContracting := [1]
  lhsNonContracting := [0]
  rhsNonContracting := [0]
  lhsBatch := []
  rhsBatch := []
  wf := dot_S4096x4096_S11008x4096_S4096x11008_1_1_0_0_n_n_wf

class Facts : Prop extends Facts₀ where

variable [Facts]
-- ==== Proof.DequantLinear.lean ====
/-
  A linear layer whose weights are stored as integer codes with one zero point and one scale per block of 64
  consecutive input coordinates: the entry of the output at a row and a column is
      Σ_{k < 4096} a k · ((code (q k) − code (z (k / 64))) · s (k / 64)) + β,
  over the extended reals, where `a` is the row of inputs, `q`, `z`, `s` the column's codes, zero points and scales and
  `β` its bias. Summing the 4096 products in eight consecutive runs of 512 and adding the runs one after the other
  from zero gives the same entry: addition of extended reals is associative and commutative, so no finiteness is needed.
-/
import Idealize.ShloMosaic.PureOps.Ideal.Laws
import Idealize.ShloMosaic.Lib.ValueIdx

noncomputable section

open scoped BigOperators

namespace DequantLinear

open Idealize.ShloMosaic

/-- The block of 64 input coordinates that coordinate `k` lies in. -/
def blk (k : Fin 4096) : Fin 64 := ⟨k.val / 64, by have := k.isLt; omega⟩

/-- An integer code read as the extended real it denotes. -/
abbrev code (b : BitVec 32) : EReal := FloatOps.sitofp (F := Ideal) .f32 b

/-- One weight of a column: (code − zero point of the coordinate's block) · scale of that block. -/
def weight (q : Fin 4096 → BitVec 32) (z : Fin 64 → BitVec 32) (s : Fin 64 → EReal) (k : Fin 4096) : EReal :=
  (code (q k) - code (z (blk k))) * s (blk k)

/-- One output entry: the row of inputs against the column of weights, plus the column's bias. -/
def entry (a : Fin 4096 → EReal) (w : Fin 4096 → EReal) (β : EReal) : EReal :=
  (∑ k : Fin 4096, a k * w k) + β

/-- Coordinate `e` of run `j`: position `512 j + e`. -/
def pos (j : Fin 8) (e : Fin 512) : Fin 4096 := ⟨512 * j.val + e.val, by have := j.isLt; have := e.isLt; omega⟩

/-- The 4096 coordinates are the eight runs of 512. -/
def posEquiv : Fin 8 × Fin 512 ≃ Fin 4096 where
  toFun p := pos p.1 p.2
  invFun k := (⟨k.val / 512, by have := k.isLt; omega⟩, ⟨k.val % 512, Nat.mod_lt _ (by norm_num)⟩)
  left_inv p := by
    obtain ⟨j, e⟩ := p
    have hj := j.isLt; have he := e.isLt
    apply Prod.ext
    · apply Fin.ext; show (512 * j.val + e.val) / 512 = j.val; omega
    · apply Fin.ext; show (512 * j.val + e.val) % 512 = e.val; omega
  right_inv k := by
    apply Fin.ext; show 512 * (k.val / 512) + k.val % 512 = k.val; omega

/-- A sum over the coordinates is the sum over the runs of the sums inside each run. -/
theorem sum_runs {M : Type*} [AddCommMonoid M] (f : Fin 4096 → M) :
    ∑ k : Fin 4096, f k = ∑ j : Fin 8, ∑ e : Fin 512, f (pos j e) := by
  rw [← Equiv.sum_comp posEquiv f, Fintype.sum_prod_type]
  rfl

/-- The contribution of run `j` (a natural number; nothing past the eighth run). -/
def run (a w : Fin 4096 → EReal) (j : ℕ) : EReal :=
  if h : j < 8 then ∑ e : Fin 512, a (pos ⟨j, h⟩ e) * w (pos ⟨j, h⟩ e) else 0

/-- The eight runs added up, plus the bias, are the entry. -/
theorem runs_add_bias (a w : Fin 4096 → EReal) (β : EReal) :
    (∑ j ∈ Finset.range 8, run a w j) + β = entry a w β := by
  unfold entry
  rw [sum_runs, Finset.sum_range]
  refine congrArg (· + β) (Finset.sum_congr rfl fun j _ => ?_)
  unfold run
  rw [dif_pos j.isLt]

/-- The block of a coordinate inside run `j`: eight blocks per run. -/
theorem blk_pos (j : Fin 8) (e : Fin 512) : (blk (pos j e)).val = 8 * j.val + e.val / 64 := by
  show (512 * j.val + e.val) / 64 = _
  have := j.isLt; have := e.isLt; omega

end DequantLinear

end
-- ==== Proof.RefValue.lean ====
/-
  The reference program read at one entry of its result. At row `r` and column `n` it is
      Σ_{k < 4096} x0[r, k] · ((code x1[n, k] − code x3[n, k / 64]) · x2[n, k / 64]) + x4[n]
  over the extended reals: the two reshapes of the codes cancel (the flat position of [n, k / 64, k % 64] is that of
  [n, k]), and the zero points and scales, broadcast along the last axis, are read at the block k / 64 of column n.
-/
import proofs.«160078_j70480413328065_1_alg».proof.Proof.Gen.ReferenceIdeal.Read
import proofs.«160078_j70480413328065_1_alg».proof.Proof.DequantLinear

noncomputable section

open scoped BigOperators

namespace Cert.ReferenceIdeal.RefValue

open Idealize.ShloMosaic Idealize.ShloMosaic.ValueIdx Cert.ReferenceIdeal Cert.ReferenceIdeal.Read

/-- The left operand of the contraction is read at row `r`, coordinate `k`. -/
theorem lidx_eq (r : Fin 4096) (n : Fin 11008) (k : Fin 4096) :
    lidx_main_v10 (ix2 r n) k = ix2 r k :=
  funext fun a => match a with | ⟨0, _⟩ => rfl | ⟨1, _⟩ => rfl

/-- The right operand of the contraction is read at column `n`, coordinate `k`. -/
theorem ridx_eq (r : Fin 4096) (n : Fin 11008) (k : Fin 4096) :
    ridx_main_v10 (ix2 r n) k = ix2 n k :=
  funext fun a => match a with | ⟨0, _⟩ => rfl | ⟨1, _⟩ => rfl

/-- Splitting coordinate `k` into (k / 64, k % 64) and flattening again gives `k` back. -/
theorem idx_code (n : Fin 11008) (k : Fin 4096) :
    idx_main_v0 (idx_main_v9 (ix2 n k)) = ix2 n k :=
  funext fun a => Fin.ext (by
    have hn := n.isLt; have hk := k.isLt
    match a with
    | ⟨0, _⟩ =>
      show (((n.val * 4096 + k.val) / 4096 * 64 + (n.val * 4096 + k.val) / 64 % 64) * 64
        + (n.val * 4096 + k.val) % 64) / 4096 = n.val
      omega
    | ⟨1, _⟩ =>
      show (((n.val * 4096 + k.val) / 4096 * 64 + (n.val * 4096 + k.val) / 64 % 64) * 64
        + (n.val * 4096 + k.val) % 64) % 4096 = k.val
      omega)

/-- The zero point broadcast to position [n, k / 64, k % 64] is the one of block k / 64 of column `n`. -/
theorem idx_zero (n : Fin 11008) (k : Fin 4096) :
    idx_main_v2 (idx_main_v5 (idx_main_v9 (ix2 n k))) = ix2 n (DequantLinear.blk k) :=
  funext fun a => Fin.ext (by
    have hn := n.isLt; have hk := k.isLt
    match a with
    | ⟨0, _⟩ =>
      show (((n.val * 4096 + k.val) / 4096 * 64 + (n.val * 4096 + k.val) / 64 % 64) * 1 + 0) / 64 = n.val
      omega
    | ⟨1, _⟩ =>
      show (((n.val * 4096 + k.val) / 4096 * 64 + (n.val * 4096 + k.val) / 64 % 64) * 1 + 0) % 64 = k.val / 64
      omega)

/-- The scale broadcast to position [n, k / 64, k % 64] is the one of block k / 64 of column `n`. -/
theorem idx_scale (n : Fin 11008) (k : Fin 4096) :
    idx_main_v4 (idx_main_v7 (idx_main_v9 (ix2 n k))) = ix2 n (DequantLinear.blk k) :=
  funext fun a => Fin.ext (by
    have hn := n.isLt; have hk := k.isLt
    match a with
    | ⟨0, _⟩ =>
      show (((n.val * 4096 + k.val) / 4096 * 64 + (n.val * 4096 + k.val) / 64 % 64) * 1 + 0) / 64 = n.val
      omega
    | ⟨1, _⟩ =>
      show (((n.val * 4096 + k.val) / 4096 * 64 + (n.val * 4096 + k.val) / 64 % 64) * 1 + 0) % 64 = k.val / 64
      omega)

/-- The bias broadcast to position [r, n] is the one of column `n`. -/
theorem idx_bias (r : Fin 4096) (n : Fin 11008) :
    idx_main_v11 (idx_main_v12 (ix2 r n)) = ix1 n :=
  funext fun a => match a with | ⟨0, _⟩ => rfl

/-- One weight of the reference: the entry [n, k] of the dequantized matrix. -/
theorem weight_entry (x1 : (⟨S11008x4096, .i32⟩ : BufTy).Contents (Elt Ideal))
    (x2 : (⟨S11008x64, .f32⟩ : BufTy).Contents (Elt Ideal)) (x3 : (⟨S11008x64, .i32⟩ : BufTy).Contents (Elt Ideal))
    (n : Fin 11008) (k : Fin 4096) :
    val_main_v9 (F := Ideal) x1 x2 x3 (ix2 n k)
      = DequantLinear.weight (fun k => x1 (ix2 n k)) (fun b => x3 (ix2 n b)) (fun b => x2 (ix2 n b)) k := by
  rw [val_main_v9_apply, val_main_v8_apply, val_main_v6_apply, val_main_v7_apply, val_main_v1_apply,
    val_main_v5_apply, val_main_v3_apply, val_main_v0_apply, val_main_v2_apply, val_main_v4_apply,
    idx_code, idx_zero, idx_scale]
  rfl

/-- The reference's result at row `r`, column `n`. -/
theorem result_entry (x0 : (⟨S4096x4096, .f32⟩ : BufTy).Contents (Elt Ideal))
    (x1 : (⟨S11008x4096, .i32⟩ : BufTy).Contents (Elt Ideal)) (x2 : (⟨S11008x64, .f32⟩ : BufTy).Contents (Elt Ideal))
    (x3 : (⟨S11008x64, .i32⟩ : BufTy).Contents (Elt Ideal)) (x4 : (⟨S11008, .f32⟩ : BufTy).Contents (Elt Ideal))
    (r : Fin 4096) (n : Fin 11008) :
    val_main_v13 (F := Ideal) x0 x1 x2 x3 x4 (ix2 r n)
      = DequantLinear.entry (fun k => x0 (ix2 r k))
          (DequantLinear.weight (fun k => x1 (ix2 n k)) (fun b => x3 (ix2 n b)) (fun b => x2 (ix2 n b)))
          (x4 (ix1 n)) := by
  rw [val_main_v13_apply, val_main_v10_apply, val_main_v12_apply, val_main_v11_apply, idx_bias]
  unfold DequantLinear.entry
  refine congrArg (· + x4 (ix1 n)) (Finset.sum_congr rfl fun k _ => ?_)
  rw [lidx_eq, ridx_eq, weight_entry]

end Cert.ReferenceIdeal.RefValue

end
-- ==== Proof.StepPieces.lean ====
/-
  What one grid step leaves behind, as terms of the body's arithmetic. The body keeps a 1024 × 1024 accumulator across
  the eight steps of a run: the first step clears it and adds its product block, every later step adds its product
  block to what the step before left, and the last step also writes the accumulator plus the bias row to the output block.
  Each statement below identifies what the symbolic run of the body found in a buffer with the corresponding arithmetic
  term of the loaded blocks, for any float instance.
-/
import proofs.«160078_j70480413328065_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.StepPieces

open Cert.KernelIdeal Cert.KernelIdeal.Gen

variable {F : FTy → Type} [FloatOps F]

theorem hz : (![0, 0] : Fin 2 → Nat) = fun _ => 0 := funext fun a => by fin_cases a <;> rfl

/-- A middle step (neither the first nor the last of its run of eight): the accumulator holding `xs0` is left holding
    `xs0` plus this step's product block. -/
theorem acc_middle (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S8x1024 .f32) (harg5 : arg5.IsWhole) (arg6 : Memref sig .tc .vmem S8x1024 .i32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : ¬cond0_1 i)
    (x0 : Vec F S1024x512 .f32) (x1 : Vec F S1024x512 .i32) (x2 : Vec F S8x1024 .f32) (x3 : Vec F S8x1024 .i32) (x4 : Vec F S1x1024 .f32) (xs0 : Vec F S1024x1024 .f32) :
    sout0_B_0 c i arg3 harg3 arg4 harg4 arg5 harg5 arg6 harg6 arg7 harg7 arg8 harg8 arg9 harg9 hc0 hc1 x0 x1 x2 x3 x4 xs0 = k0_pay2 x1 x2 x3 x0 xs0 := by
  unfold sout0_B_0
  rw [View.read_writes_eq_canon _ _ _ (scover0_B_0 c i arg3 harg3 arg4 harg4 arg5 harg5 arg6 harg6 arg7 harg7 arg8 harg8 arg9 harg9 hc0 hc1 x0 x1 x2 x3 x4 xs0)]
  unfold kernelRun0_B
  dsimp only
  rw [View.canon_unit_zero hz]
  simp only [View.readAt_eq_ld, harg3.read_unread, harg4.read_unread, harg5.read_unread, harg6.read_unread, harg9.read_unread,
    View.ld_unit_zero (S := S1024x512) hz, View.ld_unit_zero (S := S8x1024) hz, View.ld_unit_zero (S := S1024x1024) hz]

/-- The last step of a run: the accumulator is stepped in the same way, -/
theorem acc_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S8x1024 .f32) (harg5 : arg5.IsWhole) (arg6 : Memref sig .tc .vmem S8x1024 .i32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S8x1024 .f32) (x3 : Vec F S8x1024 .i32) (x4 : Vec F S1x1024 .f32) (xs0 : Vec F S1024x1024 .f32) :
    sout0_C_0 c i arg3 harg3 arg4 harg4 arg5 harg5 arg6 harg6 arg7 harg7 arg8 harg8 arg9 harg9 hc0 hc1 x0 x1 x2 x3 x4 xs0 = k0_pay2 x1 x2 x3 x0 xs0 := by
  unfold sout0_C_0
  rw [View.read_writes_eq_canon _ _ _ (scover0_C_0 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) hz]
  simp only [View.readAt_eq_ld, harg3.read_unread, harg4.read_unread, harg5.read_unread, harg6.read_unread, harg7.read_unread, harg9.read_unread,
    View.ld_unit_zero (S := S1024x512) hz, View.ld_unit_zero (S := S8x1024) hz, View.ld_unit_zero (S := S1024x1024) hz, View.ld_unit_zero (S := S1x1024) hz]

/-- and the output block is the stepped accumulator plus the bias row. -/
theorem out_last (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S8x1024 .f32) (harg5 : arg5.IsWhole) (arg6 : Memref sig .tc .vmem S8x1024 .i32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : ¬cond0_0 i) (hc1 : cond0_1 i)
    (x0 : Vec F S1024x512 .f32) (x1 : Vec F S1024x512 .i32) (x2 : Vec F S8x1024 .f32) (x3 : Vec F S8x1024 .i32) (x4 : Vec F S1x1024 .f32) (xs0 : Vec F S1024x1024 .f32) :
    out0_C_5 c i arg3 harg3 arg4 harg4 arg5 harg5 arg6 harg6 arg7 harg7 arg8 harg8 arg9 harg9 hc0 hc1 x0 x1 x2 x3 x4 xs0 = k0_pay3 (k0_pay2 x1 x2 x3 x0 xs0) x4 := by
  unfold out0_C_5
  rw [View.read_writes_eq_canon _ _ _ (cover0_C_5 c i arg3 harg3 arg4 harg4 arg5 harg5 arg6 harg6 arg7 harg7 arg8 harg8 arg9 harg9 hc0 hc1 x0 x1 x2 x3 x4 xs0)]
  unfold kernelRun0_C
  dsimp only
  sl_unfold_words
  rw [View.canon_unit_zero (S := S1024x1024) hz, View.readCov_unit_zero (S := S1024x1024) _ hz]
  simp only [View.readAt_eq_ld, harg3.read_unread, harg4.read_unread, harg5.read_unread, harg6.read_unread, harg7.read_unread, harg9.read_unread,
    View.ld_unit_zero (S := S1024x512) hz, View.ld_unit_zero (S := S8x1024) hz, View.ld_unit_zero (S := S1024x1024) hz, View.ld_unit_zero (S := S1x1024) hz]

/-- The first step of a run: the accumulator is cleared, then stepped. -/
theorem acc_first (c : Dev nD) (i : grid0.Coords) (arg3 : Memref sig .tc .vmem S1024x512 .f32) (harg3 : arg3.IsWhole) (arg4 : Memref sig .tc .vmem S1024x512 .i32) (harg4 : arg4.IsWhole) (arg5 : Memref sig .tc .vmem S8x1024 .f32) (harg5 : arg5.IsWhole) (arg6 : Memref sig .tc .vmem S8x1024 .i32) (harg6 : arg6.IsWhole) (arg7 : Memref sig .tc .vmem S1x1024 .f32) (harg7 : arg7.IsWhole) (arg8 : Memref sig .tc .vmem S1024x1024 .f32) (harg8 : arg8.IsWhole) (arg9 : Memref sig .tc .vmem S1024x1024 .f32) (harg9 : arg9.IsWhole) (hc0 : cond0_0 i) (hc1 : ¬cond0_1 i)
    (x0 : Vec F S1024x512 .f32) (x1 : Vec F S1024x512 .i32) (x2 : Vec F S8x1024 .f32) (x3 : Vec F S8x1024 .i32) (x4 : Vec F S1x1024 .f32) :
    sout0_A_0 c i arg3 harg3 arg4 harg4 arg5 harg5 arg6 harg6 arg7 harg7 arg8 harg8 arg9 harg9 hc0 hc1 x0 x1 x2 x3 x4 = k0_pay2 x1 x2 x3 x0 (k0_pay1 (F := F)) := by
  unfold sout0_A_0
  rw [View.read_writes_eq_canon _ _ _ (scover0_A_0 c i arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1024x1024) hz, View.readCov_unit_zero (S := S1024x1024) _ hz]
  simp only [View.readAt_eq_ld, harg3.read_unread, harg4.read_unread, harg5.read_unread, harg6.read_unread, harg7.read_unread, harg9.read_unread,
    View.ld_unit_zero (S := S1024x512) hz, View.ld_unit_zero (S := S8x1024) hz, View.ld_unit_zero (S := S1024x1024) hz, View.ld_unit_zero (S := S1x1024) hz]

end Cert.KernelIdeal.StepPieces

end
-- ==== Proof.LibDotTransposedRhs.lean ====
/-
  A two-dimensional matrix product whose right operand is contracted on its LAST axis — `M × K` by `N × K`, the product
  `A · Bᵀ`, no batch axis (`DotDims.transposedRhs M K N`, the dimension numbers `<[1], [1], [0], [0]>`) — read at an output
  index over the extended reals: a kernel's `tpu.matmul` into a zero accumulator is the finite sum
  `Σ_{k < K} lhs (r, k) · rhs (c, k)`, with the contraction index a plain `Fin K` and the operand indices built from
  coordinates. A printed record `dot_S…_1_1_0_0_n_n` of these dimension numbers IS `DotDims.transposedRhs M K N` (`rfl`: the
  lists coincide and the well-formedness field is a proposition).
-/
import Idealize.ShloMosaic.PureOps.Ideal.Laws
import Idealize.ShloMosaic.Lib.ValueIdx

namespace Idealize.ShloMosaic.DotTransposedRhs

open Idealize.ShloMosaic.ValueIdx

variable {M K N : Nat}

theorem contr_rank : (DotDims.transposedRhs M K N).contr.rank = 1 := rfl
theorem contr_size : (DotDims.transposedRhs M K N).contr.size ⟨0, by rw [contr_rank]; exact Nat.one_pos⟩ = K := rfl

/-- The left operand's row coordinate is the output's row. -/
theorem lhsIdx_val0 (j : (⟨2, ![M, N]⟩ : Shape).Idx) (q : (DotDims.transposedRhs M K N).contr.Idx) :
    ((DotDims.transposedRhs M K N).lhsIdx j q 0).val = (j 0).val := by
  unfold DotDims.lhsIdx
  rw [dif_neg (show ¬(0 : Fin (⟨2, ![M, K]⟩ : Shape).rank) ∈ (DotDims.transposedRhs M K N).lhsBatch from List.not_mem_nil),
    dif_pos (show (0 : Fin (⟨2, ![M, K]⟩ : Shape).rank) ∈ (DotDims.transposedRhs M K N).lhsNonContracting from List.mem_singleton.mpr rfl)]
  rfl

/-- The left operand's column coordinate is the contraction position. -/
theorem lhsIdx_val1 (j : (⟨2, ![M, N]⟩ : Shape).Idx) (q : (DotDims.transposedRhs M K N).contr.Idx) :
    ((DotDims.transposedRhs M K N).lhsIdx j q 1).val = (q ⟨0, by rw [contr_rank]; exact Nat.one_pos⟩).val :=
  (DotDims.transposedRhs M K N).lhsIdx_val_of_single (cl := (1 : Fin 2)) rfl j q

/-- The right operand's row coordinate is the output's column. -/
theorem rhsIdx_val0 (j : (⟨2, ![M, N]⟩ : Shape).Idx) (q : (DotDims.transposedRhs M K N).contr.Idx) :
    ((DotDims.transposedRhs M K N).rhsIdx j q 0).val = (j 1).val := by
  unfold DotDims.rhsIdx
  rw [dif_neg (show ¬(0 : Fin (⟨2, ![N, K]⟩ : Shape).rank) ∈ (DotDims.transposedRhs M K N).rhsBatch from List.not_mem_nil),
    dif_pos (show (0 : Fin (⟨2, ![N, K]⟩ : Shape).rank) ∈ (DotDims.transposedRhs M K N).rhsNonContracting from List.mem_singleton.mpr rfl)]
  rfl

/-- The right operand's column coordinate is the contraction position. -/
theorem rhsIdx_val1 (j : (⟨2, ![M, N]⟩ : Shape).Idx) (q : (DotDims.transposedRhs M K N).contr.Idx) :
    ((DotDims.transposedRhs M K N).rhsIdx j q 1).val = (q ⟨0, by rw [contr_rank]; exact Nat.one_pos⟩).val :=
  (DotDims.transposedRhs M K N).rhsIdx_val_of_single (cr := (1 : Fin 2)) rfl j q

/-- The left operand's index at output index `(r, c)` and contraction position `k` is `(r, k)`. -/
theorem lhsIdx_eq (r : Fin M) (c : Fin N) (k : Fin K) :
    (DotDims.transposedRhs M K N).lhsIdx (ix2 r c) ((contrEquiv1 (DotDims.transposedRhs M K N) K contr_rank contr_size).symm k)
      = ix2 r k := by
  have hk := contrEquiv1_symm_val (DotDims.transposedRhs M K N) K contr_rank contr_size k
  funext a
  apply Fin.ext
  match a with
  | ⟨0, _⟩ => exact lhsIdx_val0 (ix2 r c) _
  | ⟨1, _⟩ => exact (lhsIdx_val1 (ix2 r c) _).trans hk

/-- The right operand's index there is `(c, k)`. -/
theorem rhsIdx_eq (r : Fin M) (c : Fin N) (k : Fin K) :
    (DotDims.transposedRhs M K N).rhsIdx (ix2 r c) ((contrEquiv1 (DotDims.transposedRhs M K N) K contr_rank contr_size).symm k)
      = ix2 c k := by
  have hk := contrEquiv1_symm_val (DotDims.transposedRhs M K N) K contr_rank contr_size k
  funext a
  apply Fin.ext
  match a with
  | ⟨0, _⟩ => exact rhsIdx_val0 (ix2 r c) _
  | ⟨1, _⟩ => exact (rhsIdx_val1 (ix2 r c) _).trans hk

/-- A kernel's product `A · Bᵀ` into the zero accumulator, at `(r, c)`: the sum over the contracted coordinate of
    `A (r, k) · B (c, k)`. -/
theorem matmul_apply_ix2 {φ₁ φ₂ : FTy} (prec : Option ContractPrecision) (lhs : FVec Ideal ⟨2, ![M, K]⟩ φ₁)
    (rhs : FVec Ideal ⟨2, ![N, K]⟩ φ₂) (r : Fin M) (c : Fin N) :
    FloatOps.matmul (DotDims.transposedRhs M K N) prec lhs rhs (constant ⟨2, ![M, N]⟩ .f32 0x00000000#32) (ix2 r c)
      = ∑ k : Fin K, lhs (ix2 r k) * rhs (ix2 c k) := by
  rw [Ideal.matmul_constant_zero_apply,
    ← Equiv.sum_comp (contrEquiv1 (DotDims.transposedRhs M K N) K contr_rank contr_size).symm]
  refine Finset.sum_congr rfl fun k _ => ?_
  rw [lhsIdx_eq, rhsIdx_eq]

end Idealize.ShloMosaic.DotTransposedRhs
-- ==== Proof.StepValue.lean ====
/-
  The body's arithmetic read at one entry, over the extended reals. One step multiplies a 1024 × 512 block of inputs by
  the transpose of a 1024 × 512 block of dequantised weights and adds the product to the accumulator: at row `r` and
  column `c` of the block,
      acc (r, c) + Σ_{e < 512} a (r, e) · ((code (q (c, e)) − code (z (e / 64, c))) · s (e / 64, c)),
  where the zero points and scales of the step arrive as 8 × 1024 blocks, one row per block of 64 coordinates. The last
  step of a run adds the bias row, and the first starts from the zero block.
-/
import proofs.«160078_j70480413328065_1_alg».proof.Proof.Gen.KernelIdeal.Skeleton
import proofs.«160078_j70480413328065_1_alg».proof.Proof.DequantLinear
import proofs.«160078_j70480413328065_1_alg».proof.Proof.LibDotTransposedRhs
import Idealize.ShloMosaic.Lib.Pipeline.Value
import Idealize.ShloMosaic.Lib.ValueIdx
import Idealize.ShloMosaic.PureOps.Ideal.Laws

noncomputable section

open scoped BigOperators

namespace Cert.KernelIdeal.StepValue

open Idealize.ShloMosaic Idealize.ShloMosaic.ValueIdx Cert.KernelIdeal Cert.KernelIdeal.Gen
open DequantLinear (code)

/-- The row, among the step's eight rows of zero points and scales, that coordinate `e` of the step reads. -/
def sub (e : Fin 512) : Fin 8 := ⟨e.val / 64, by have := e.isLt; omega⟩
/-- The position of coordinate `e` inside its block of 64. -/
def lane (e : Fin 512) : Fin 64 := ⟨e.val % 64, Nat.mod_lt _ (by norm_num)⟩

section Layout
variable {α : Type}

/-- A 1024 × 512 block viewed as 1024 × 8 × 64 holds, at (c, e / 64, e % 64), the block's entry (c, e). -/
theorem split_apply (v : S1024x512.Idx → α) (h : S1024x512.ShapeCasts S1024x8x64) (c : Fin 1024) (e : Fin 512) :
    shapeCast S1024x8x64 v h (ix3 c (sub e) (lane e)) = v (ix2 c e) :=
  shapeCast_apply v h (ix3 c (sub e) (lane e)) (ix2 c e) (by
    rw [Shape.rowMajor_val_two, Shape.rowMajor_val_three]
    have := c.isLt; have := e.isLt
    show c.val * 512 + e.val = (c.val * 8 + e.val / 64) * 64 + e.val % 64
    omega)

/-- And flattening 1024 × 8 × 64 back to 1024 × 512 reads (c, e) at (c, e / 64, e % 64). -/
theorem merge_apply (v : S1024x8x64.Idx → α) (h : S1024x8x64.ShapeCasts S1024x512) (c : Fin 1024) (e : Fin 512) :
    shapeCast S1024x512 v h (ix2 c e) = v (ix3 c (sub e) (lane e)) :=
  shapeCast_apply v h (ix2 c e) (ix3 c (sub e) (lane e)) (by
    rw [Shape.rowMajor_val_two, Shape.rowMajor_val_three]
    have := c.isLt; have := e.isLt
    show (c.val * 8 + e.val / 64) * 64 + e.val % 64 = c.val * 512 + e.val
    omega)

/-- An 8 × 1024 block transposed, given a trailing unit axis and repeated along 64 lanes, holds at (c, b, l) the
    block's entry (b, c). -/
theorem column_apply (v : S8x1024.Idx → α) (ht : S8x1024.Transposes [1, 0] S1024x8) (hs : S1024x8.ShapeCasts S1024x8x1)
    (hb : S1024x8x1.Broadcasts S1024x8x64) (c : Fin 1024) (b : Fin 8) (l : Fin 64) :
    broadcastTo S1024x8x64 (shapeCast S1024x8x1 (transpose S1024x8 [1, 0] v ht) hs) hb (ix3 c b l) = v (ix2 b c) := by
  refine (broadcastTo_apply _ hb (ix3 c b l) (ix3 c b (0 : Fin 1)) (fun a => ?_)).trans ?_
  · match a with
    | ⟨0, _⟩ => show c.val = if (1024 : Nat) = 1 then 0 else c.val; rw [if_neg (by decide)]
    | ⟨1, _⟩ => show b.val = if (8 : Nat) = 1 then 0 else b.val; rw [if_neg (by decide)]
    | ⟨2, _⟩ => show 0 = if (1 : Nat) = 1 then 0 else l.val; rw [if_pos rfl]
  refine (shapeCast_apply _ hs (ix3 c b (0 : Fin 1)) (ix2 c b) (by
    rw [Shape.rowMajor_val_two, Shape.rowMajor_val_three]
    show c.val * 8 + b.val = (c.val * 8 + b.val) * 1 + 0
    omega)).trans ?_
  exact transpose_apply [1, 0] v ht (ix2 c b) (ix2 b c) (fun a => match a with | ⟨0, _⟩ => rfl | ⟨1, _⟩ => rfl)

/-- A one-row block repeated down 1024 rows holds at (r, c) the row's entry c. -/
theorem row_apply (v : S1x1024.Idx → α) (hb : S1x1024.Broadcasts S1024x1024) (r c : Fin 1024) :
    broadcastTo S1024x1024 v hb (ix2 r c) = v (ix2 (0 : Fin 1) c) :=
  broadcastTo_apply v hb (ix2 r c) (ix2 (0 : Fin 1) c) (fun a => match a with
    | ⟨0, _⟩ => by show 0 = if (1 : Nat) = 1 then 0 else r.val; rw [if_pos rfl]
    | ⟨1, _⟩ => by show c.val = if (1024 : Nat) = 1 then 0 else c.val; rw [if_neg (by decide)])

end Layout

/-- The block the first step of a run stores before accumulating is zero everywhere. -/
theorem clear_apply (j : S1024x1024.Idx) : k0_pay1 (F := Ideal) j = 0 := by
  unfold k0_pay1
  refine (congrFun (shapeCast_self _ _) j).trans ?_
  exact Ideal.ofBits_zero_f32

/-- The last step's output block: the accumulator plus the bias row. -/
theorem finish_apply (acc : Vec Ideal S1024x1024 .f32) (bias : Vec Ideal S1x1024 .f32) (r c : Fin 1024) :
    k0_pay3 (F := Ideal) acc bias (ix2 r c) = acc (ix2 r c) + bias (ix2 (0 : Fin 1) c) := by
  unfold k0_pay3
  show acc (ix2 r c) + _ = _
  refine congrArg (acc (ix2 r c) + ·) ?_
  refine (row_apply _ _ r c).trans ?_
  exact congrFun (shapeCast_self _ _) _

/-- One step of the accumulator, at an entry. -/
theorem step_apply (q : Vec Ideal S1024x512 .i32) (s : Vec Ideal S8x1024 .f32) (z : Vec Ideal S8x1024 .i32)
    (a : Vec Ideal S1024x512 .f32) (acc : Vec Ideal S1024x1024 .f32) (r c : Fin 1024) :
    k0_pay2 (F := Ideal) q s z a acc (ix2 r c)
      = acc (ix2 r c) + ∑ e : Fin 512, a (ix2 r e) * ((code (q (ix2 c e)) - code (z (ix2 (sub e) c))) * s (ix2 (sub e) c)) := by
  unfold k0_pay2
  dsimp only
  refine (congrFun (shapeCast_self _ _) _).trans ?_
  show acc (ix2 r c) + _ = _
  refine congrArg (acc (ix2 r c) + ·) ?_
  refine (Idealize.ShloMosaic.DotTransposedRhs.matmul_apply_ix2 (M := 1024) (K := 512) (N := 1024) none _ _ r c).trans ?_
  refine Finset.sum_congr rfl fun e _ => ?_
  show a (ix2 r e) * _ = _
  refine congrArg (a (ix2 r e) * ·) ?_
  refine (truncf_apply (φ := .f32) (ψ := .bf16) _ bitsLt_bf16_f32 (ix2 c e)).trans ?_
  refine (merge_apply _ _ c e).trans ?_
  show (FloatOps.sitofp (F := Ideal) .f32 (shapeCast S1024x8x64 (shapeCast S1024x512 q _) _ (ix3 c (sub e) (lane e))) - _) * _ = _
  rw [split_apply, column_apply, column_apply]
  simp only [shapeCast_self]
  rfl

end Cert.KernelIdeal.StepValue

end
-- ==== Proof.Blocks.lean ====
/-
  Where a grid step's blocks sit in the whole arrays. The 352 steps are numbered run by run: step `t` is step `t % 8` of
  its run, works on row block `t / 88` of the inputs and on column block `t / 8 % 11` of the weights. Its input block is
  rows `1024 (t / 88) + r`, coordinates `512 (t % 8) + e`; its codes are columns `1024 (t / 8 % 11) + c` at the same
  coordinates; its zero points and scales are the eight rows `8 (t % 8) + b` of the transposed tables at those columns;
  its bias row is those columns of the bias.
-/
import proofs.«160078_j70480413328065_1_alg».proof.Proof.Gen.KernelIdeal.Frame.Runs
import Idealize.ShloMosaic.Lib.Pipeline.Value
import Idealize.ShloMosaic.Lib.ValueIdx

noncomputable section

namespace Cert.KernelIdeal.Blocks

open Idealize.ShloMosaic Idealize.ShloMosaic.TcCoe Idealize.SL.Sem Idealize.ShloMosaic.ValueIdx
open Cert.KernelIdeal Cert.KernelIdeal.Gen

/-- Row `r` of step `t`'s row block, in the whole input array. -/
def gRow (t : ℕ) (r : Fin 1024) : Fin 4096 := ⟨1024 * (t / 88 % 4) + r.val, by have := r.isLt; omega⟩
/-- Column `c` of step `t`'s column block, among the padded columns. -/
def gCol (t : ℕ) (c : Fin 1024) : Fin 11264 := ⟨1024 * (t / 8 % 11) + c.val, by have := c.isLt; omega⟩
/-- Coordinate `e` of step `t`, among the 4096 input coordinates. -/
def gK (t : ℕ) (e : Fin 512) : Fin 4096 := ⟨512 * (t % 8) + e.val, by have := e.isLt; omega⟩
/-- Row `b` of step `t`'s eight rows of zero points and scales, among the 64 blocks of coordinates. -/
def gB (t : ℕ) (b : Fin 8) : Fin 64 := ⟨8 * (t % 8) + b.val, by have := b.isLt; omega⟩

/-- The windows' block indices at every step, decided over the grid. -/
theorem idx_facts : ∀ t : Fin cfg0.N,
    win0_0.index t (0 : Fin 2) = t.val / 88 ∧ win0_0.index t (1 : Fin 2) = t.val % 8
    ∧ win0_1.index t (0 : Fin 2) = t.val / 8 % 11 ∧ win0_1.index t (1 : Fin 2) = t.val % 8
    ∧ win0_2.index t (0 : Fin 2) = t.val % 8 ∧ win0_2.index t (1 : Fin 2) = t.val / 8 % 11
    ∧ win0_3.index t (0 : Fin 2) = t.val % 8 ∧ win0_3.index t (1 : Fin 2) = t.val / 8 % 11
    ∧ win0_4.index t (0 : Fin 2) = 0 ∧ win0_4.index t (1 : Fin 2) = t.val / 8 % 11
    ∧ win0_5.index t (0 : Fin 2) = t.val / 88 ∧ win0_5.index t (1 : Fin 2) = t.val / 8 % 11 :=
  (by decide +kernel : ∀ t : Fin grid0.N, _)

variable {F : FTy → Type} [FloatOps F]
variable (m : (ℓ : Loc nD τ sig) → Buf (Elt F) ℓ)

/-- The input block of step `t` at (r, e). -/
theorem input_entry (c : Dev nD) (t : Fin cfg0.N) (r : Fin 1024) (e : Fin 512) :
    (iblk m c 0 t : Vec F S1024x512 .f32) (ix2 r e) = V m c main_arg0 (ix2 (gRow t.val r) (gK t.val e)) := by
  have hN : t.val < 352 := lt_of_lt_of_eq t.isLt (show cfg0.N = 352 from N_0)
  obtain ⟨h0, h1, -⟩ := idx_facts t
  unfold iblk
  rw [View.read_apply]
  refine congrArg (V m c main_arg0) (funext fun a => Fin.ext ?_)
  match a with
  | ⟨0, _⟩ =>
    show win0_0.index t (0 : Fin 2) * 1024 + 1 * r.val = 1024 * (t.val / 88 % 4) + r.val
    rw [h0]; omega
  | ⟨1, _⟩ =>
    show win0_0.index t (1 : Fin 2) * 512 + 1 * e.val = 512 * (t.val % 8) + e.val
    rw [h1]; omega

/-- The codes of step `t` at (c, e). -/
theorem codes_entry (c : Dev nD) (t : Fin cfg0.N) (cc : Fin 1024) (e : Fin 512) :
    (iblk m c 1 t : Vec F S1024x512 .i32) (ix2 cc e) = V m c main_v0 (ix2 (gCol t.val cc) (gK t.val e)) := by
  obtain ⟨-, -, h0, h1, -⟩ := idx_facts t
  unfold iblk
  rw [View.read_apply]
  refine congrArg (V m c main_v0) (funext fun a => Fin.ext ?_)
  match a with
  | ⟨0, _⟩ =>
    show win0_1.index t (0 : Fin 2) * 1024 + 1 * cc.val = 1024 * (t.val / 8 % 11) + cc.val
    rw [h0]; omega
  | ⟨1, _⟩ =>
    show win0_1.index t (1 : Fin 2) * 512 + 1 * e.val = 512 * (t.val % 8) + e.val
    rw [h1]; omega

/-- The scales of step `t` at (b, c). -/
theorem scales_entry (c : Dev nD) (t : Fin cfg0.N) (b : Fin 8) (cc : Fin 1024) :
    (iblk m c 2 t : Vec F S8x1024 .f32) (ix2 b cc) = V m c main_v4 (ix2 (gB t.val b) (gCol t.val cc)) := by
  obtain ⟨-, -, -, -, h0, h1, -⟩ := idx_facts t
  unfold iblk
  rw [View.read_apply]
  refine congrArg (V m c main_v4) (funext fun a => Fin.ext ?_)
  match a with
  | ⟨0, _⟩ =>
    show win0_2.index t (0 : Fin 2) * 8 + 1 * b.val = 8 * (t.val % 8) + b.val
    rw [h0]; omega
  | ⟨1, _⟩ =>
    show win0_2.index t (1 : Fin 2) * 1024 + 1 * cc.val = 1024 * (t.val / 8 % 11) + cc.val
    rw [h1]; omega

/-- The zero points of step `t` at (b, c). -/
theorem zeros_entry (c : Dev nD) (t : Fin cfg0.N) (b : Fin 8) (cc : Fin 1024) :
    (iblk m c 3 t : Vec F S8x1024 .i32) (ix2 b cc) = V m c main_v5 (ix2 (gB t.val b) (gCol t.val cc)) := by
  obtain ⟨-, -, -, -, -, -, h0, h1, -⟩ := idx_facts t
  unfold iblk
  rw [View.read_apply]
  refine congrArg (V m c main_v5) (funext fun a => Fin.ext ?_)
  match a with
  | ⟨0, _⟩ =>
    show win0_3.index t (0 : Fin 2) * 8 + 1 * b.val = 8 * (t.val % 8) + b.val
    rw [h0]; omega
  | ⟨1, _⟩ =>
    show win0_3.index t (1 : Fin 2) * 1024 + 1 * cc.val = 1024 * (t.val / 8 % 11) + cc.val
    rw [h1]; omega

/-- The bias row of step `t` at column c. -/
theorem bias_entry (c : Dev nD) (t : Fin cfg0.N) (cc : Fin 1024) :
    (iblk m c 4 t : Vec F S1x1024 .f32) (ix2 (0 : Fin 1) cc) = V m c main_v6 (ix2 (0 : Fin 1) (gCol t.val cc)) := by
  obtain ⟨-, -, -, -, -, -, -, -, h0, h1, -⟩ := idx_facts t
  unfold iblk
  rw [View.read_apply]
  refine congrArg (V m c main_v6) (funext fun a => Fin.ext ?_)
  match a with
  | ⟨0, _⟩ =>
    show win0_4.index t (0 : Fin 2) * 1 + 1 * 0 = 0
    rw [h0]
  | ⟨1, _⟩ =>
    show win0_4.index t (1 : Fin 2) * 1024 + 1 * cc.val = 1024 * (t.val / 8 % 11) + cc.val
    rw [h1]; omega

end Cert.KernelIdeal.Blocks

end
-- ==== Proof.Accum.lean ====
/-
  What the accumulator and the output block hold after each grid step, entry by entry. After step `t` the accumulator
  holds, at (r, c), the sum of the runs `0 … t % 8` of the products of input row `1024 (t / 88) + r` with the weights of
  column `1024 (t / 8 % 11) + c` — by induction on the step: a run's first step starts from zero, every other step adds
  its own run to what the step before left, and the row and column blocks do not change inside a run of eight. At the
  last step of a run the output block is that sum of all eight runs plus the column's bias: the whole entry.
-/
import proofs.«160078_j70480413328065_1_alg».proof.Proof.Gen.KernelIdeal.Frame
import proofs.«160078_j70480413328065_1_alg».proof.Proof.StepPieces
import proofs.«160078_j70480413328065_1_alg».proof.Proof.StepValue
import proofs.«160078_j70480413328065_1_alg».proof.Proof.Blocks
import proofs.«160078_j70480413328065_1_alg».proof.Proof.DequantLinear

noncomputable section

open scoped BigOperators

namespace Cert.KernelIdeal.Accum

open Idealize.ShloMosaic Idealize.ShloMosaic.TcCoe Idealize.SL.Sem Idealize.ShloMosaic.ValueIdx
open Cert.KernelIdeal Cert.KernelIdeal.Gen
open Cert.KernelIdeal.Blocks Cert.KernelIdeal.StepValue Cert.KernelIdeal.StepPieces

variable (m : (ℓ : Loc nD τ sig) → Buf (Elt Ideal) ℓ)

/-- Row `R` of the inputs, as the region finds them. -/
def inRow (c : Dev nD) (R : Fin 4096) : Fin 4096 → EReal := fun k => V m c main_arg0 (ix2 R k)

/-- The dequantised weights of padded column `C`, from the padded codes and the transposed padded tables. -/
def wCol (c : Dev nD) (C : Fin 11264) : Fin 4096 → EReal :=
  DequantLinear.weight (fun k => V m c main_v0 (ix2 C k)) (fun b => V m c main_v5 (ix2 b C)) (fun b => V m c main_v4 (ix2 b C))

/-- One step's arithmetic on its own blocks: what was there plus the step's run of the entry's sum. -/
theorem step_entry (c : Dev nD) (t : Fin cfg0.N) (prev : Vec Ideal S1024x1024 .f32) (r cc : Fin 1024) :
    k0_pay2 (F := Ideal) (iblk m c 1 t) (iblk m c 2 t) (iblk m c 3 t) (iblk m c 0 t) prev (ix2 r cc)
      = prev (ix2 r cc) + DequantLinear.run (inRow m c (gRow t.val r)) (wCol m c (gCol t.val cc)) (t.val % 8) := by
  refine (step_apply (iblk m c 1 t) (iblk m c 2 t) (iblk m c 3 t) (iblk m c 0 t) prev r cc).trans ?_
  refine congrArg (prev (ix2 r cc) + ·) ?_
  unfold DequantLinear.run
  rw [dif_pos (Nat.mod_lt _ (by norm_num))]
  refine Finset.sum_congr rfl fun e _ => ?_
  rw [input_entry m c t r e, codes_entry m c t cc e, zeros_entry m c t (sub e) cc, scales_entry m c t (sub e) cc]
  have hk : DequantLinear.pos ⟨t.val % 8, Nat.mod_lt _ (by norm_num)⟩ e = gK t.val e := Fin.ext rfl
  have hb : DequantLinear.blk (gK t.val e) = gB t.val (sub e) := Fin.ext (by
    have := e.isLt
    show (512 * (t.val % 8) + e.val) / 64 = 8 * (t.val % 8) + e.val / 64
    omega)
  rw [hk]
  unfold inRow wCol DequantLinear.weight
  rw [hb]

/-- The accumulator after a step, from the accumulator after the step before. -/
theorem acc_step (c : Dev nD) (t : Fin cfg0.N) (r cc : Fin 1024) :
    (outsAt0 m c t.val t.isLt).2 (ix2 r cc)
      = (if t.val % 8 = 0 then 0 else (outsAt0 m c (t.val - 1) (Nat.lt_of_le_of_lt (Nat.sub_le _ _) t.isLt)).2 (ix2 r cc))
        + DequantLinear.run (inRow m c (gRow t.val r)) (wCol m c (gCol t.val cc)) (t.val % 8) := by
  by_cases h0 : t.val % 8 = 0
  · have h1 : ¬t.val % 8 = 7 := by omega
    rw [if_pos h0, outsAt0_A m c t h0 h1]
    dsimp only
    rw [acc_first, step_entry m c t _ r cc, clear_apply]
  · rw [if_neg h0]
    by_cases h1 : t.val % 8 = 7
    · rw [outsAt0_C m c t h0 h1]
      dsimp only
      rw [acc_last, step_entry m c t _ r cc]
    · rw [outsAt0_B m c t h0 h1]
      dsimp only
      rw [acc_middle, step_entry m c t _ r cc]

/-- The accumulator after step `n`: the runs so far of the entry's sum. -/
theorem acc_entry (c : Dev nD) : ∀ (n : ℕ) (h : n < cfg0.N) (r cc : Fin 1024),
    (outsAt0 m c n h).2 (ix2 r cc)
      = ∑ j ∈ Finset.range (n % 8 + 1), DequantLinear.run (inRow m c (gRow n r)) (wCol m c (gCol n cc)) j
  | 0, h, r, cc => by
    rw [acc_step m c ⟨0, h⟩ r cc]
    show (if 0 % 8 = 0 then 0 else _) + _ = _
    rw [if_pos rfl, zero_add]
    exact (Finset.sum_range_one _).symm
  | n + 1, h, r, cc => by
    rw [acc_step m c ⟨n + 1, h⟩ r cc]
    show (if (n + 1) % 8 = 0 then 0 else (outsAt0 m c n _).2 (ix2 r cc)) + DequantLinear.run _ _ ((n + 1) % 8) = _
    by_cases h0 : (n + 1) % 8 = 0
    · rw [if_pos h0, zero_add, h0]
      exact (Finset.sum_range_one _).symm
    · rw [if_neg h0, acc_entry c n (Nat.lt_of_succ_lt h) r cc]
      have e1 : gRow n r = gRow (n + 1) r := Fin.ext (by
        show 1024 * (n / 88 % 4) + r.val = 1024 * ((n + 1) / 88 % 4) + r.val
        omega)
      have e2 : gCol n cc = gCol (n + 1) cc := Fin.ext (by
        show 1024 * (n / 8 % 11) + cc.val = 1024 * ((n + 1) / 8 % 11) + cc.val
        omega)
      have e3 : (n + 1) % 8 = n % 8 + 1 := by omega
      rw [e1, e2, e3]
      exact (Finset.sum_range_succ _ (n % 8 + 1)).symm

/-- At the last step of a run the output block is the accumulator plus the bias row. -/
theorem out_of_acc (c : Dev nD) (t : Fin cfg0.N) (h7 : t.val % 8 = 7) (r cc : Fin 1024) :
    (outsAt0 m c t.val t.isLt).1 (ix2 r cc)
      = (outsAt0 m c t.val t.isLt).2 (ix2 r cc) + (iblk m c 4 t : Vec Ideal S1x1024 .f32) (ix2 (0 : Fin 1) cc) := by
  have h0 : ¬t.val % 8 = 0 := by omega
  rw [outsAt0_C m c t h0 h7]
  dsimp only
  rw [out_last, acc_last]
  exact finish_apply _ _ r cc

/-- So the output block written back at the last step of a run holds whole entries. -/
theorem out_entry (c : Dev nD) (t : Fin cfg0.N) (h7 : t.val % 8 = 7) (r cc : Fin 1024) :
    (outsAt0 m c t.val t.isLt).1 (ix2 r cc)
      = DequantLinear.entry (inRow m c (gRow t.val r)) (wCol m c (gCol t.val cc))
          (V m c main_v6 (ix2 (0 : Fin 1) (gCol t.val cc))) := by
  rw [out_of_acc m c t h7 r cc, acc_entry m c t.val t.isLt r cc, bias_entry m c t cc, h7]
  exact DequantLinear.runs_add_bias _ _ _

end Cert.KernelIdeal.Accum

end
-- ==== Proof.Padded.lean ====
/-
  The padded result array after the grid has run. The last step of each run of eight writes its 1024 × 1024 output block
  back to rows `1024 (t / 88) + r`, columns `1024 (t / 8 % 11) + c` of the [4096, 11264] array, and that block holds whole
  entries; the 4 × 11 blocks tile the array; so the array ends holding, at every (R, C), the entry of input row R against
  the weights and bias of padded column C.
-/
import proofs.«160078_j70480413328065_1_alg».proof.Proof.Gen.KernelIdeal.Frame
import proofs.«160078_j70480413328065_1_alg».proof.Proof.Accum
import Idealize.ShloMosaic.Lib.Pipeline.Value
import Idealize.ShloMosaic.Lib.ValueIdx

noncomputable section

namespace Cert.KernelIdeal.Padded

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Blocks Cert.KernelIdeal.Accum

variable (m : (ℓ : Loc nD τ sig) → Buf (Elt Ideal) ℓ)

/-- The entry at row `R` and padded column `C`. -/
def entryAt (c : Dev nD) (R : Fin 4096) (C : Fin 11264) : EReal :=
  DequantLinear.entry (inRow m c R) (wCol m c C) (V m c main_v6 (ix2 (0 : Fin 1) C))

/-- The whole padded result: every entry. -/
def result (c : Dev nD) : Buf (Elt Ideal) ((c : Thread nD τ).loc main_v7) :=
  fun i => entryAt m c ⟨(i 0).val, (i 0).isLt⟩ ⟨(i 1).val, (i 1).isLt⟩

/-- What the last step of a run writes back is its block of the whole padded result. -/
theorem flushed_eq (c : Dev nD) (t : Fin cfg0.N) (hf : (cfg0.win 5).flush t = true) :
    (dats m 0 c).flushed 5 t = ((cfg0.win 5).blk t).view.read (Elt Ideal) (result m c) := by
  have h7 : t.val % 8 = 7 := (flush0_5 t).mp hf
  have hN : t.val < 352 := lt_of_lt_of_eq t.isLt (show cfg0.N = 352 from N_0)
  obtain ⟨-, -, -, -, -, -, -, -, -, -, h50, h51⟩ := idx_facts t
  show (cfg0.win 5).cut (grid0.coords t) ((dats m 0 c).after 5 t) = _
  rw [after0_5]
  funext y
  obtain ⟨r, cc, rfl⟩ : ∃ (r cc : Fin 1024), y = ix2 r cc := ⟨y 0, y 1, eq_ix2 y⟩
  rw [View.read_apply]
  show (outsAt0 m c t.val t.isLt).1 (ix2 r cc) = result m c (((cfg0.win 5).blk t).view.emb (ix2 r cc))
  rw [out_entry m c t h7 r cc]
  unfold result entryAt
  have eR : (⟨((((cfg0.win 5).blk t).view.emb (ix2 r cc)) 0).val, ((((cfg0.win 5).blk t).view.emb (ix2 r cc)) 0).isLt⟩ : Fin 4096) = gRow t.val r :=
    Fin.ext (by
      show win0_5.index t (0 : Fin 2) * 1024 + 1 * r.val = 1024 * (t.val / 88 % 4) + r.val
      rw [h50]; omega)
  have eC : (⟨((((cfg0.win 5).blk t).view.emb (ix2 r cc)) 1).val, ((((cfg0.win 5).blk t).view.emb (ix2 r cc)) 1).isLt⟩ : Fin 11264) = gCol t.val cc :=
    Fin.ext (by
      show win0_5.index t (1 : Fin 2) * 1024 + 1 * cc.val = 1024 * (t.val / 8 % 11) + cc.val
      rw [h51]; omega)
  rw [eR, eC]

/-- An index of the array is in step `t`'s block iff each coordinate is in the block's range on its axis. -/
theorem mem_blk (t : Fin cfg0.N) (i : S4096x11264.Idx) :
    i ∈ ((cfg0.win 5).blk t).view.set ↔ ∀ a : Fin 2, win0_5.index t a * S1024x1024.size a ≤ (i a).val ∧ (i a).val < win0_5.index t a * S1024x1024.size a + S1024x1024.size a := by
  show i ∈ ((View.whole main_v7).slice (win0_5.rect t)).set ↔ _
  rw [View.set_slice_whole, Rect.mem_set_unit]
  exact Iff.rfl

/-- Every index of the array lies in the block some run's last step writes back. -/
theorem cover (i : S4096x11264.Idx) :
    ∃ t : Fin cfg0.N, (cfg0.win 5).flush t = true ∧ i ∈ ((cfg0.win 5).blk t).view.set := by
  have hi0 : (i 0).val < 4096 := (i 0).isLt
  have hi1 : (i 1).val < 11264 := (i 1).isLt
  have hN : cfg0.N = 352 := N_0
  let tv : ℕ := ((i 0).val / 1024 * 11 + (i 1).val / 1024) * 8 + 7
  have htv : tv < cfg0.N := by rw [hN]; show ((i 0).val / 1024 * 11 + (i 1).val / 1024) * 8 + 7 < 352; omega
  refine ⟨⟨tv, htv⟩, (flush0_5 ⟨tv, htv⟩).mpr (by show (((i 0).val / 1024 * 11 + (i 1).val / 1024) * 8 + 7) % 8 = 7; omega), ?_⟩
  obtain ⟨-, -, -, -, -, -, -, -, -, -, h50, h51⟩ := idx_facts ⟨tv, htv⟩
  rw [mem_blk]
  intro a
  match a with
  | ⟨0, _⟩ =>
    show win0_5.index ⟨tv, htv⟩ (0 : Fin 2) * 1024 ≤ (i 0).val ∧ (i 0).val < win0_5.index ⟨tv, htv⟩ (0 : Fin 2) * 1024 + 1024
    rw [h50]
    show (((i 0).val / 1024 * 11 + (i 1).val / 1024) * 8 + 7) / 88 * 1024 ≤ (i 0).val ∧ (i 0).val < (((i 0).val / 1024 * 11 + (i 1).val / 1024) * 8 + 7) / 88 * 1024 + 1024
    omega
  | ⟨1, _⟩ =>
    show win0_5.index ⟨tv, htv⟩ (1 : Fin 2) * 1024 ≤ (i 1).val ∧ (i 1).val < win0_5.index ⟨tv, htv⟩ (1 : Fin 2) * 1024 + 1024
    rw [h51]
    show (((i 0).val / 1024 * 11 + (i 1).val / 1024) * 8 + 7) / 8 % 11 * 1024 ≤ (i 1).val ∧ (i 1).val < (((i 0).val / 1024 * 11 + (i 1).val / 1024) * 8 + 7) / 8 % 11 * 1024 + 1024
    omega

/-- So the padded result array ends holding every entry. -/
theorem final (c : Dev nD) : (dats m 0 c).arrAt 5 cfg0.N = result m c :=
  (dats m 0 c).arrAt_eq_of_cover 5 (result m c) (flushed_eq m c) (cover)

/-- The array after the run, at a row and a padded column. -/
theorem final_entry (c : Dev nD) (R : Fin 4096) (C : Fin 11264) :
    (dats m 0 c).arrAt 5 cfg0.N (ix2 R C) = entryAt m c R C :=
  congrFun (final m c) (ix2 R C)

end Cert.KernelIdeal.Padded

end
-- ==== Proof.HostPrefix.lean ====
/-
  What the program does to the weights' arrays before its grid runs, read at a real column. It appends 256 rows of
  zeros to the codes [11008, 4096], the scales [11008, 64], the zero points [11008, 64] and the bias [11008] (a row is a
  column of the layer), transposes the padded scales and zero points to [64, 11264], and views the padded bias as one
  row [1, 11264]. At a column n < 11008 each of these arrays still holds the launch value: padding after the last row
  changes no earlier entry, the transposed array at [b, n] is the array at [n, b], and entry [0, n] of a vector seen
  as one row is its entry n. This holds for every float instance: no arithmetic is involved.
-/
import proofs.«160078_j70480413328065_1_alg».proof.Proof.Gen.KernelIdeal.Frame.Runs
import Idealize.ShloMosaic.Lib.Pipeline.Value
import Idealize.ShloMosaic.Lib.ValueIdx
import Idealize.ShloMosaic.Lib.StableHlo.Run
import Idealize.ShloMosaic.Lib.KernelVsHost

noncomputable section

namespace Cert.KernelIdeal.HostPrefix

open Idealize.ShloMosaic Idealize.ShloMosaic.TcCoe Idealize.ShloMosaic.ValueIdx Cert.KernelIdeal Cert.KernelIdeal.Gen

variable {F : FTy → Type} [FloatOps F]
variable (m : (ℓ : Loc nD τ sig) → Buf (Elt F) ℓ)

/-- A real column, among the padded ones. -/
def widen (n : Fin 11008) : Fin 11264 := ⟨n.val, by have := n.isLt; omega⟩

/-! ## The arrays at region entry as terms of the launch contents -/

/-- The padded codes: the launch codes with 256 rows of the zero code appended. -/
theorem codes_term (c : Dev nD) :
    (V m c main_v0 : S11264x4096.Idx → Elt F .i32)
      = pad S11264x4096 ![0, 0] ![256, 0] ![0, 0] (m ((c : Thread nD τ).loc main_arg1)) (constantI S_ 32 0#32)
          pads_S11008x4096_S11264x4096_02560_000 h_S_ := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The padded scales, transposed: blocks along the first axis, columns along the second. -/
theorem scales_term (c : Dev nD) :
    (V m c main_v4 : S64x11264.Idx → Elt F .f32)
      = transpose S64x11264 [1, 0]
          (pad S11264x64 ![0, 0] ![256, 0] ![0, 0] (m ((c : Thread nD τ).loc main_arg2))
            (sitofp .f32 (constantI S_ 32 0#32)) pads_S11008x64_S11264x64_02560_000 h_S_)
          transposes_S11264x64_S64x11264_1_0 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The padded zero points, transposed. -/
theorem zeros_term (c : Dev nD) :
    (V m c main_v5 : S64x11264.Idx → Elt F .i32)
      = transpose S64x11264 [1, 0]
          (pad S11264x64 ![0, 0] ![256, 0] ![0, 0] (m ((c : Thread nD τ).loc main_arg3))
            (constantI S_ 32 0#32) pads_S11008x64_S11264x64_02560_000 h_S_)
          transposes_S11264x64_S64x11264_1_0 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-- The padded bias, as one row. -/
theorem bias_term (c : Dev nD) :
    (V m c main_v6 : S1x11264.Idx → Elt F .f32)
      = shapeCast S1x11264
          (pad S11264 ![0] ![256] ![0] (m ((c : Thread nD τ).loc main_arg4))
            (sitofp .f32 (constantI S_ 32 0#32)) pads_S11008_S11264_02560 h_S_)
          shapeCasts_S11264_S1x11264 := by
  dsimp only [V, V0]
  simp only [hostOps0, hostOps0_1, hostOps0_2, hostOps0_3, hostOps0_4, hostOps0_5, hostOps0_6, hostOps0_7, hostOps0_8,
    List.flatten_cons, List.flatten_nil, List.append_nil, List.cons_append, List.nil_append]
  after_results
  rfl

/-! ## Read below the padding -/

/-- Padding rows after the last one leaves every entry of the first 11008 rows as it was (4096 columns). -/
theorem pad_codes_apply {α : Type} (x : S11008x4096.Idx → α) (v : S_.Idx → α) (n : Fin 11008) (k : Fin 4096) :
    pad S11264x4096 ![0, 0] ![256, 0] ![0, 0] x v pads_S11008x4096_S11264x4096_02560_000 h_S_ (ix2 (widen n) k)
      = x (ix2 n k) :=
  pad_apply_of_inside _ _ _ x v _ _ (ix2 (widen n) k) (ix2 n k) (fun a => match a with
    | ⟨0, _⟩ => by show n.val = 0 + n.val * (0 + 1); omega
    | ⟨1, _⟩ => by show k.val = 0 + k.val * (0 + 1); omega)

/-- The same for an array of 64 columns. -/
theorem pad_blocks_apply {α : Type} (x : S11008x64.Idx → α) (v : S_.Idx → α) (n : Fin 11008) (b : Fin 64) :
    pad S11264x64 ![0, 0] ![256, 0] ![0, 0] x v pads_S11008x64_S11264x64_02560_000 h_S_ (ix2 (widen n) b)
      = x (ix2 n b) :=
  pad_apply_of_inside _ _ _ x v _ _ (ix2 (widen n) b) (ix2 n b) (fun a => match a with
    | ⟨0, _⟩ => by show n.val = 0 + n.val * (0 + 1); omega
    | ⟨1, _⟩ => by show b.val = 0 + b.val * (0 + 1); omega)

/-- The same for a vector. -/
theorem pad_vec_apply {α : Type} (x : S11008.Idx → α) (v : S_.Idx → α) (n : Fin 11008) :
    pad S11264 ![0] ![256] ![0] x v pads_S11008_S11264_02560 h_S_ (ix1 (widen n)) = x (ix1 n) :=
  pad_apply_of_inside _ _ _ x v _ _ (ix1 (widen n)) (ix1 n) (fun a => match a with
    | ⟨0, _⟩ => by show n.val = 0 + n.val * (0 + 1); omega)

/-- The transposed array at [b, j] is the array at [j, b]. -/
theorem transpose_blocks_apply {α : Type} (x : S11264x64.Idx → α) (b : Fin 64) (j : Fin 11264) :
    transpose S64x11264 [1, 0] x transposes_S11264x64_S64x11264_1_0 (ix2 b j) = x (ix2 j b) :=
  transpose_apply [1, 0] x transposes_S11264x64_S64x11264_1_0 (ix2 b j) (ix2 j b) (fun a => match a with
    | ⟨0, _⟩ => rfl
    | ⟨1, _⟩ => rfl)

/-- A vector seen as one row: the row's entry j is the vector's entry j. -/
theorem row_apply {α : Type} (x : S11264.Idx → α) (j : Fin 11264) :
    shapeCast S1x11264 x shapeCasts_S11264_S1x11264 (ix2 (0 : Fin 1) j) = x (ix1 j) :=
  shapeCast_apply x shapeCasts_S11264_S1x11264 (ix2 (0 : Fin 1) j) (ix1 j) (by
    rw [Shape.rowMajor_val_one, Shape.rowMajor_val_two]
    show j.val = 0 * 11264 + j.val
    omega)

/-- The codes the kernel sees at a real column are the launch codes. -/
theorem codes_entry (c : Dev nD) (n : Fin 11008) (k : Fin 4096) :
    V m c main_v0 (ix2 (widen n) k) = m ((c : Thread nD τ).loc main_arg1) (ix2 n k) :=
  (congrFun (codes_term m c) (ix2 (widen n) k)).trans (pad_codes_apply _ _ n k)

/-- The scale of block `b` of a real column is the launch scale. -/
theorem scales_entry (c : Dev nD) (n : Fin 11008) (b : Fin 64) :
    V m c main_v4 (ix2 b (widen n)) = m ((c : Thread nD τ).loc main_arg2) (ix2 n b) :=
  (congrFun (scales_term m c) (ix2 b (widen n))).trans
    ((transpose_blocks_apply _ b (widen n)).trans (pad_blocks_apply _ _ n b))

/-- The zero point of block `b` of a real column is the launch zero point. -/
theorem zeros_entry (c : Dev nD) (n : Fin 11008) (b : Fin 64) :
    V m c main_v5 (ix2 b (widen n)) = m ((c : Thread nD τ).loc main_arg3) (ix2 n b) :=
  (congrFun (zeros_term m c) (ix2 b (widen n))).trans
    ((transpose_blocks_apply _ b (widen n)).trans (pad_blocks_apply _ _ n b))

/-- The bias of a real column is the launch bias. -/
theorem bias_entry (c : Dev nD) (n : Fin 11008) :
    V m c main_v6 (ix2 (0 : Fin 1) (widen n)) = m ((c : Thread nD τ).loc main_arg4) (ix1 n) :=
  (congrFun (bias_term m c) (ix2 (0 : Fin 1) (widen n))).trans
    ((row_apply _ (widen n)).trans (pad_vec_apply _ _ n))

end Cert.KernelIdeal.HostPrefix

end
-- ==== Proof.Tail.lean ====
/-
  What the program does after its grid has run: the padded result [4096, 11264] is cut back to its first 11008
  columns. So the program's result at row R and column n < 11008 is the padded result's entry [R, n]: a slice that
  starts at [0, 0] with unit strides reads its operand at the same coordinates. No arithmetic is involved, so this
  holds for every float instance.
-/
import proofs.«160078_j70480413328065_1_alg».proof.Proof.Gen.KernelIdeal.Frame
import proofs.«160078_j70480413328065_1_alg».proof.Proof.HostPrefix
import Idealize.ShloMosaic.Lib.Pipeline.Value
import Idealize.ShloMosaic.Lib.ValueIdx
import Idealize.ShloMosaic.Lib.StableHlo.Run

noncomputable section

namespace Cert.KernelIdeal.Tail

open Idealize.ShloMosaic Idealize.ShloMosaic.TcCoe Idealize.SL.Sem Idealize.ShloMosaic.ValueIdx Cert.KernelIdeal Cert.KernelIdeal.Gen
  Cert.KernelIdeal.HostPrefix
open Idealize.ShloMosaic.Pipeline (Dat)

variable {F : FTy → Type} [FloatOps F]
variable (m : (ℓ : Loc nD τ sig) → Buf (Elt F) ℓ)

/-- After the grid the program keeps the first 11008 columns of the padded result. -/
theorem tail_term (c : Dev nD) :
    (Pipeline.afterTail₀ cfgs (dats m) 0 (V0 m) [hostOps1] c main_v8 : S4096x11008.Idx → Elt F .f32)
      = extractStridedSlice S4096x11008 ![0, 0] ((dats m 0 c).arrAt 5 cfg0.N : S4096x11264.Idx → Elt F .f32)
          slices_S4096x11264_S4096x11008_0_0 := by
  unfold Pipeline.afterTail₀
  show StableHlo.after hostOps1 _ (Proc.devRef .tc main_v8) = _
  after_results
  exact congrArg (fun x : S4096x11264.Idx → Elt F .f32 =>
      extractStridedSlice S4096x11008 ![0, 0] x slices_S4096x11264_S4096x11008_0_0)
    (Pipeline.withArrays_arr spec0 launch0.win.arr_inj c _ _ 5)

/-- The first 11008 columns of an array of 11264 columns: entry [R, n] is the array's entry [R, n]. -/
theorem slice_apply {α : Type} (x : S4096x11264.Idx → α) (R : Fin 4096) (n : Fin 11008) :
    extractStridedSlice S4096x11008 ![0, 0] x slices_S4096x11264_S4096x11008_0_0 (ix2 R n) = x (ix2 R (widen n)) :=
  extractStridedSlice_apply ![0, 0] x slices_S4096x11264_S4096x11008_0_0 (ix2 R n) (ix2 R (widen n)) (fun a => match a with
    | ⟨0, _⟩ => by show R.val = 0 + R.val; omega
    | ⟨1, _⟩ => by show n.val = 0 + n.val; omega)

/-- The program's result at row `R` and a real column `n` is the padded result's entry there. -/
theorem result_entry (c : Dev nD) (R : Fin 4096) (n : Fin 11008) :
    Pipeline.afterTail₀ cfgs (dats m) 0 (V0 m) [hostOps1] c main_v8 (ix2 R n)
      = (dats m 0 c).arrAt 5 cfg0.N (ix2 R (widen n)) :=
  (congrFun (tail_term m c) (ix2 R n)).trans (slice_apply _ R n)

end Cert.KernelIdeal.Tail

end
-- ==== Proof.Spec.lean ====
/-
  The whole result as one function of the five argument arrays: at row `r` and column `n`, the entry of input row `r`
  against the dequantised weights of column `n` — codes [11008, 4096], zero points and scales [11008, 64], one pair per
  block of 64 coordinates — plus the bias of column `n`.
-/
import proofs.«160078_j70480413328065_1_alg».proof.Proof.DequantLinear

noncomputable section

namespace DequantLinear

open Idealize.ShloMosaic Idealize.ShloMosaic.ValueIdx

/-- The layer's output array. -/
def spec (x0 : (⟨2, ![4096, 4096]⟩ : Shape).Idx → EReal) (x1 : (⟨2, ![11008, 4096]⟩ : Shape).Idx → BitVec 32)
    (x2 : (⟨2, ![11008, 64]⟩ : Shape).Idx → EReal) (x3 : (⟨2, ![11008, 64]⟩ : Shape).Idx → BitVec 32)
    (x4 : (⟨1, ![11008]⟩ : Shape).Idx → EReal) : (⟨2, ![4096, 11008]⟩ : Shape).Idx → EReal := fun i =>
  entry (fun k => x0 (ix2 (⟨(i 0).val, idx2_lt0 i⟩ : Fin 4096) k))
    (weight (fun k => x1 (ix2 (⟨(i 1).val, idx2_lt1 i⟩ : Fin 11008) k)) (fun b => x3 (ix2 (⟨(i 1).val, idx2_lt1 i⟩ : Fin 11008) b))
      (fun b => x2 (ix2 (⟨(i 1).val, idx2_lt1 i⟩ : Fin 11008) b)))
    (x4 (ix1 (⟨(i 1).val, idx2_lt1 i⟩ : Fin 11008)))

/-- The output array at a row and a column. -/
theorem spec_apply (x0 : (⟨2, ![4096, 4096]⟩ : Shape).Idx → EReal) (x1 : (⟨2, ![11008, 4096]⟩ : Shape).Idx → BitVec 32)
    (x2 : (⟨2, ![11008, 64]⟩ : Shape).Idx → EReal) (x3 : (⟨2, ![11008, 64]⟩ : Shape).Idx → BitVec 32)
    (x4 : (⟨1, ![11008]⟩ : Shape).Idx → EReal) (r : Fin 4096) (n : Fin 11008) :
    spec x0 x1 x2 x3 x4 (ix2 r n)
      = entry (fun k => x0 (ix2 r k)) (weight (fun k => x1 (ix2 n k)) (fun b => x3 (ix2 n b)) (fun b => x2 (ix2 n b))) (x4 (ix1 n)) := rfl

end DequantLinear

end
-- ==== Proof.KernelRun.lean ====
/-
  The kernel program's run, read: the result array ends holding the layer's output of the five argument arrays. The
  padded array holds every entry against the padded columns; the program keeps its first 11008 columns; and at a real
  column the padded codes, zero points, scales and bias are the arguments' own.
-/
import proofs.«160078_j70480413328065_1_alg».proof.Proof.Gen.KernelIdeal.Frame
import proofs.«160078_j70480413328065_1_alg».proof.Proof.Padded
import proofs.«160078_j70480413328065_1_alg».proof.Proof.Tail
import proofs.«160078_j70480413328065_1_alg».proof.Proof.HostPrefix
import proofs.«160078_j70480413328065_1_alg».proof.Proof.Spec

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen
open Cert.KernelIdeal.Accum Cert.KernelIdeal.HostPrefix

variable (m : (ℓ : Loc nD τ sig) → Buf (Elt Ideal) ℓ) (ρ : Dev nD → PrngReg)

/-- The layer's output of the launch contents of the five arguments. -/
abbrev out (c : Dev nD) : (⟨2, ![4096, 11008]⟩ : Shape).Idx → EReal :=
  DequantLinear.spec (m ((c : Thread nD τ).loc main_arg0)) (m ((c : Thread nD τ).loc main_arg1)) (m ((c : Thread nD τ).loc main_arg2)) (m ((c : Thread nD τ).loc main_arg3)) (m ((c : Thread nD τ).loc main_arg4))

/-- What the lines after the grid leave in the result array. -/
theorem tail_eq (c : Dev nD) :
    Pipeline.afterTail₀ cfgs (dats m) 0 (V0 m) [hostOps1] c main_v8 = out m c := by
  funext i
  obtain ⟨R, n, rfl⟩ : ∃ (R : Fin 4096) (n : Fin 11008), i = ix2 R n := ⟨i 0, i 1, eq_ix2 i⟩
  rw [Cert.KernelIdeal.Tail.result_entry m c R n, Cert.KernelIdeal.Padded.final_entry m c R (widen n)]
  unfold Cert.KernelIdeal.Padded.entryAt
  have a1 : inRow m c R = fun k => m ((c : Thread nD τ).loc main_arg0) (ix2 R k) :=
    funext fun k => congrFun (V_main_arg0 m c) (ix2 R k)
  have a2 : wCol m c (widen n) = DequantLinear.weight (fun k => m ((c : Thread nD τ).loc main_arg1) (ix2 n k))
      (fun b => m ((c : Thread nD τ).loc main_arg3) (ix2 n b)) (fun b => m ((c : Thread nD τ).loc main_arg2) (ix2 n b)) := by
    unfold wCol
    rw [funext (fun k => codes_entry m c n k), funext (fun b => zeros_entry m c n b), funext (fun b => scales_entry m c n b)]
  rw [a1, a2, bias_entry m c n]
  rfl

/-- Every weakly fair execution of the program ends with the result array at the layer's output and the arguments as
    launched. -/
theorem run : θ_run defs (onTc (τ := τ) (main (F := Ideal))) ⟨m, fun _ => 0, ρ⟩ (fun r => ∀ c : Dev nD,
      r.2.mem ((c.tc : Thread nD τ).loc main_v8) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_v8 (Pipeline.mem_restRefs_of main_v8 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.Result

end
-- ==== Proof.lean ====
/-
  The kernel — a 4096 × 4096 input times the transpose of an 11008 × 4096 weight matrix stored as integer codes with one
  zero point and one scale per block of 64 coordinates, plus a bias — against its plain reference, over the extended reals.

  The kernel pads the 11008 columns to 11264, walks a 4 × 11 × 8 grid of 1024 × 1024 output blocks and eight runs of 512
  coordinates, and keeps a running sum in an accumulator: cleared at a run's first step, stepped at each, written out
  with the bias at the last; afterwards it keeps the first 11008 columns. The reference dequantises the whole matrix,
  contracts all 4096 coordinates at once and adds the bias. Both produce, at row r and column n,
      Σ_{k < 4096} input[r, k] · ((code[n, k] − zero[n, k / 64]) · scale[n, k / 64]) + bias[n]:
  the kernel's eight partial sums added in turn from zero are the one sum, because addition of extended reals is
  associative and commutative — no entry needs to be finite, so the precondition is never opened. Changes of float
  format are the identity at the ideal instance and the idealization rewrote nothing.
-/
import proofs.«160078_j70480413328065_1_alg».proof.Defs
import proofs.«160078_j70480413328065_1_alg».proof.Proof.Gen.Kernel
import proofs.«160078_j70480413328065_1_alg».proof.Proof.Gen.Kernel.Skeleton
import proofs.«160078_j70480413328065_1_alg».proof.Proof.Gen.Kernel.Launch
import proofs.«160078_j70480413328065_1_alg».proof.Proof.Gen.Kernel.Points
import proofs.«160078_j70480413328065_1_alg».proof.Proof.Gen.Kernel.Frame
import proofs.«160078_j70480413328065_1_alg».proof.Proof.Gen.KernelIdeal
import proofs.«160078_j70480413328065_1_alg».proof.Proof.Gen.KernelIdeal.Skeleton
import proofs.«160078_j70480413328065_1_alg».proof.Proof.Gen.KernelIdeal.Launch
import proofs.«160078_j70480413328065_1_alg».proof.Proof.Gen.KernelIdeal.Points
import proofs.«160078_j70480413328065_1_alg».proof.Proof.Gen.KernelIdeal.Frame
import proofs.«160078_j70480413328065_1_alg».proof.Proof.Gen.ReferenceIdeal
import proofs.«160078_j70480413328065_1_alg».proof.Proof.Gen.ReferenceIdeal.Run
import proofs.«160078_j70480413328065_1_alg».proof.Proof.Gen.ReferenceIdeal.Read
import proofs.«160078_j70480413328065_1_alg».proof.Proof.Gen.Pre_finite_inputs
import proofs.«160078_j70480413328065_1_alg».proof.Proof.RefValue
import proofs.«160078_j70480413328065_1_alg».proof.Proof.KernelRun
import Idealize.ShloMosaic.Adequacy
import Idealize.ShloMosaic.Init

noncomputable section

namespace Cert.Proof

open Idealize.ShloMosaic Idealize.SL.Sem Idealize.ShloMosaic.ValueIdx

/-- The word-level kernel runs and leaves its arguments as launched. -/
theorem frame_kernel : Cert.frame_Kernel (hKernel := Cert.Kernel.Gen.facts) (hPre_finite_inputs := Cert.Pre_finite_inputs.Gen.facts) :=
  fun m ρ _ => Cert.Kernel.Gen.frame m ρ

/-- So does the idealized kernel. -/
theorem frame_kernelIdeal : Cert.frame_KernelIdeal (hKernelIdeal := Cert.KernelIdeal.Gen.facts) (hPre_finite_inputs := Cert.Pre_finite_inputs.Gen.facts) :=
  fun m ρ _ => Cert.KernelIdeal.Gen.frame m ρ

/-- And the reference: its run, the result dropped. -/
theorem frame_referenceIdeal : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer's output of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨fun c => Cert.KernelIdeal.Result.out m c, Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, (hagree c).1, (hagree c).2.1, (hagree c).2.2.1, (hagree c).2.2.2.1,
    (hagree c).2.2.2.2]
  funext i
  obtain ⟨R, n, rfl⟩ : ∃ (R : Fin 4096) (n : Fin 11008), i = ix2 R n := ⟨i 0, i 1, eq_ix2 i⟩
  exact Cert.ReferenceIdeal.RefValue.result_entry _ _ _ _ _ R n

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
